-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S8192x1000 : Shape := ⟨2, ![8192, 1000]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : FVec F S4096x4096 .f32) (main_arg2 : FVec F S4096 .f32) (main_arg3 : IVec S8192x1000 32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x4096 : Shape := ⟨2, ![8192, 4096]⟩
abbrev S4096x4096 : Shape := ⟨2, ![4096, 4096]⟩
abbrev S4096 : Shape := ⟨1, ![4096]⟩
abbrev S8192x1000 : Shape := ⟨2, ![8192, 1000]⟩
abbrev S_ : Shape := ⟨0, ![]⟩
abbrev S8192 : Shape := ⟨1, ![8192]⟩
abbrev S1x4096 : Shape := ⟨2, ![1, 4096]⟩
abbrev S8192x1 : Shape := ⟨2, ![8192, 1]⟩
abbrev S1024x1024 : Shape := ⟨2, ![1024, 1024]⟩
abbrev S512x1024 : Shape := ⟨2, ![512, 1024]⟩
abbrev S1x512 : Shape := ⟨2, ![1, 512]⟩
abbrev S1024x1 : Shape := ⟨2, ![1024, 1]⟩
abbrev S1024x512 : Shape := ⟨2, ![1024, 512]⟩

abbrev nBuf : Space → Nat
  | .hbm => 16
  | .vmem => 11
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S8192x1000, .i32⟩
  | .hbm, ⟨4, _⟩ => ⟨S8192x1000, .f32⟩
  | .hbm, ⟨5, _⟩ => ⟨S_, .f32⟩
  | .hbm, ⟨6, _⟩ => ⟨S8192, .f32⟩
  | .hbm, ⟨7, _⟩ => ⟨S_, .f32⟩
  | .hbm, ⟨8, _⟩ => ⟨S8192, .f32⟩
  | .hbm, ⟨9, _⟩ => ⟨S8192, .f32⟩
  | .hbm, ⟨10, _⟩ => ⟨S_, .f32⟩
  | .hbm, ⟨11, _⟩ => ⟨S8192, .f32⟩
  | .hbm, ⟨12, _⟩ => ⟨S8192, .f32⟩
  | .hbm, ⟨13, _⟩ => ⟨S1x4096, .f32⟩
  | .hbm, ⟨14, _⟩ => ⟨S8192x1, .f32⟩
  | .hbm, ⟨15, _⟩ => ⟨S8192x4096, .f32⟩
  | .local _ .vmem, ⟨0, _⟩ => ⟨S1024x1024, .f32⟩
  | .local _ .vmem, ⟨1, _⟩ => ⟨S1024x1024, .f32⟩
  | .local _ .vmem, ⟨2, _⟩ => ⟨S512x1024, .f32⟩
  | .local _ .vmem, ⟨3, _⟩ => ⟨S512x1024, .f32⟩
  | .local _ .vmem, ⟨4, _⟩ => ⟨S1x512, .f32⟩
  | .local _ .vmem, ⟨5, _⟩ => ⟨S1x512, .f32⟩
  | .local _ .vmem, ⟨6, _⟩ => ⟨S1024x1, .f32⟩
  | .local _ .vmem, ⟨7, _⟩ => ⟨S1024x1, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 8, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  reducesTo_S8192x1000_S8192_d1 : S8192x1000.ReducesTo [1] S8192
  h_S_ : 0 < S_.numel
  bcast_S_S8192 : S_.BroadcastsInDim S8192 (![] : Fin 0 → Fin S8192.rank)
  shapeCasts_S4096_S1x4096 : S4096.ShapeCasts S1x4096
  shapeCasts_S8192_S8192x1 : S8192.ShapeCasts S8192x1
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1024x1024_S1024x1024_0_0 : ∀ a, (![0, 0] : Fin 2 → Nat) a + S1024x1024.size a ≤ S1024x1024.size a
  h_S1024x1024 : 0 < S1024x1024.numel
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x512 : S1024x1.Broadcasts S1024x512
  dot_S1024x1024_S512x1024_S1024x512_1_1_0_0_n_n_wf : DotDims.WF S1024x1024 S512x1024 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .f32 = 32 ∨ (Rect.block (s := S8192x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x4096.size a
  hwx0_1 : ∀ i : grid0.Coords, EltTy.bits .f32 = 32 ∨ (Rect.block (s := S4096x4096) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x4096.size a
  hwx0_2 : ∀ i : grid0.Coords, EltTy.bits .f32 = 32 ∨ (Rect.block (s := S1x4096) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S8192x1.size a
  hwx0_3 : ∀ i : grid0.Coords, EltTy.bits .f32 = 32 ∨ (Rect.block (s := S8192x1) S1024x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x512.size a ≤ S8192x4096.size a
  hwx0_4 : ∀ i : grid0.Coords, EltTy.bits .f32 = 32 ∨ (Rect.block (s := S8192x4096) S1024x512.size (cc0_transform_4 i) (hinb0_4 i)).WholeWords (EltTy.packing .f32)

variable [Facts₀]

def dot_S1024x1024_S512x1024_S1024x512_1_1_0_0_n_n : DotDims S1024x1024 S512x1024 S1024x512 where
  lhsContracting := [1]
  rhsContracting := [1]
  lhsNonContracting := [0]
  rhsNonContracting := [0]
  lhsBatch := []
  rhsBatch := []
  wf := dot_S1024x1024_S512x1024_S1024x512_1_1_0_0_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1024x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1024x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S8192x1000 : Shape := ⟨2, ![8192, 1000]⟩
abbrev S1x4096 : Shape := ⟨2, ![1, 4096]⟩
abbrev S_ : Shape := ⟨0, ![]⟩
abbrev S8192 : Shape := ⟨1, ![8192]⟩
abbrev S8192x1 : Shape := ⟨2, ![8192, 1]⟩

abbrev nBuf : Space → Nat
  | .hbm => 20
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S8192x1000, .i32⟩
  | .hbm, ⟨4, _⟩ => ⟨S8192x4096, .f32⟩
  | .hbm, ⟨5, _⟩ => ⟨S1x4096, .f32⟩
  | .hbm, ⟨6, _⟩ => ⟨S8192x4096, .f32⟩
  | .hbm, ⟨7, _⟩ => ⟨S8192x4096, .f32⟩
  | .hbm, ⟨8, _⟩ => ⟨S8192x1000, .f32⟩
  | .hbm, ⟨9, _⟩ => ⟨S_, .f32⟩
  | .hbm, ⟨10, _⟩ => ⟨S8192, .f32⟩
  | .hbm, ⟨11, _⟩ => ⟨S_, .f32⟩
  | .hbm, ⟨12, _⟩ => ⟨S8192, .f32⟩
  | .hbm, ⟨13, _⟩ => ⟨S8192, .f32⟩
  | .hbm, ⟨14, _⟩ => ⟨S_, .f32⟩
  | .hbm, ⟨15, _⟩ => ⟨S8192, .f32⟩
  | .hbm, ⟨16, _⟩ => ⟨S8192, .f32⟩
  | .hbm, ⟨17, _⟩ => ⟨S8192x1, .f32⟩
  | .hbm, ⟨18, _⟩ => ⟨S8192x4096, .f32⟩
  | .hbm, ⟨19, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  reducesTo_S8192x1000_S8192_d1 : S8192x1000.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x4096_0_1 : S8192x1.BroadcastsInDim S8192x4096 (![0, 1] : Fin 2 → Fin S8192x4096.rank)
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.Pieces.lean ====
/-
  What one grid step of the tiled matrix product leaves behind, as values.

  The kernel walks a grid (i, j, k) with k innermost. It keeps a [1024, 512] accumulator across the four k-steps of an
  output tile (i, j). At k = 0 the accumulator is first filled with zeros; at every k the product of the current
  [1024, 1024] tile of x with the transpose of the current [512, 1024] tile of W is added to it; at k = 3 the
  accumulator plus the bias row plus the per-row column is stored into the output tile.

  The three facts below read the contents each kind of step leaves — in the accumulator at k = 0 and at 0 < k < 3, in
  the output tile at k = 3 — as the body's arithmetic applied to the tiles the step was given and to what the
  accumulator held before. Every store of the body covers its whole buffer from offset zero, and every load reads a
  whole buffer, so each is the stored value itself.
-/
import proofs.«133208_j50964081934821_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

/-- The offset of every access of the body: the origin. -/
theorem origin : (![0, 0] : Fin 2 → Nat) = fun _ => 0 := funext fun a => by fin_cases a <;> rfl

/-- A FIRST STEP (k = 0) leaves in the accumulator the zero block plus the product of the step's two tiles. -/
theorem acc_first (c : Dev nD) (i : grid0.Coords) (arg3 : Memref sig .tc .vmem S1024x1024 .f32) (harg3 : arg3.IsWhole) (arg4 : Memref sig .tc .vmem S512x1024 .f32) (harg4 : arg4.IsWhole) (arg5 : Memref sig .tc .vmem S1x512 .f32) (harg5 : arg5.IsWhole) (arg6 : Memref sig .tc .vmem S1024x1 .f32) (harg6 : arg6.IsWhole) (arg7 : Memref sig .tc .vmem S1024x512 .f32) (harg7 : arg7.IsWhole) (arg8 : Memref sig .tc .vmem S1024x512 .f32) (harg8 : arg8.IsWhole) (hc0 : cond0_0 i) (hc1 : ¬cond0_1 i)
    (x0 : Vec F S1024x1024 .f32) (x1 : Vec F S512x1024 .f32) (x2 : Vec F S1x512 .f32) (x3 : Vec F S1024x1 .f32) :
    sout0_A_0 c i arg3 harg3 arg4 harg4 arg5 harg5 arg6 harg6 arg7 harg7 arg8 harg8 hc0 hc1 x0 x1 x2 x3 = k0_pay2 x0 x1 (k0_pay1 (F := F)) := by
  unfold sout0_A_0
  rw [View.read_writes_eq_canon _ _ _ (scover0_A_0 c i arg3 harg3 arg4 harg4 arg5 harg5 arg6 harg6 arg7 harg7 arg8 harg8 hc0 hc1 x0 x1 x2 x3)]
  unfold kernelRun0_A
  dsimp only
  sl_unfold_words
  rw [View.canon_cons_unit_zero (S := S1024x512) origin, View.readCov_unit_zero (S := S1024x512) _ origin]
  simp only [View.readAt_eq_ld, harg3.read_unread, harg4.read_unread,
    View.ld_unit_zero (S := S1024x1024) origin, View.ld_unit_zero (S := S512x1024) origin, View.ld_unit_zero (S := S1024x512) origin]

/-- A MIDDLE STEP (0 < k < 3) leaves in the accumulator what it held plus the product of the step's two tiles. -/
theorem acc_middle (c : Dev nD) (i : grid0.Coords) (arg3 : Memref sig .tc .vmem S1024x1024 .f32) (harg3 : arg3.IsWhole) (arg4 : Memref sig .tc .vmem S512x1024 .f32) (harg4 : arg4.IsWhole) (arg5 : Memref sig .tc .vmem S1x512 .f32) (harg5 : arg5.IsWhole) (arg6 : Memref sig .tc .vmem S1024x1 .f32) (harg6 : arg6.IsWhole) (arg7 : Memref sig .tc .vmem S1024x512 .f32) (harg7 : arg7.IsWhole) (arg8 : Memref sig .tc .vmem S1024x512 .f32) (harg8 : arg8.IsWhole) (hc0 : ¬cond0_0 i) (hc1 : ¬cond0_1 i)
    (x0 : Vec F S1024x1024 .f32) (x1 : Vec F S512x1024 .f32) (x2 : Vec F S1x512 .f32) (x3 : Vec F S1024x1 .f32) (xs0 : Vec F S1024x512 .f32) :
    sout0_B_0 c i arg3 harg3 arg4 harg4 arg5 harg5 arg6 harg6 arg7 harg7 arg8 harg8 hc0 hc1 x0 x1 x2 x3 xs0 = k0_pay2 x0 x1 xs0 := by
  unfold sout0_B_0
  rw [View.read_writes_eq_canon _ _ _ (scover0_B_0 c i arg3 harg3 arg4 harg4 arg5 harg5 arg6 harg6 arg7 harg7 arg8 harg8 hc0 hc1 x0 x1 x2 x3 xs0)]
  unfold kernelRun0_B
  dsimp only
  rw [View.canon_unit_zero origin]
  simp only [View.readAt_eq_ld, harg3.read_unread, harg4.read_unread, harg8.read_unread,
    View.ld_unit_zero (S := S1024x1024) origin, View.ld_unit_zero (S := S512x1024) origin, View.ld_unit_zero (S := S1024x512) origin]

/-- THE LAST STEP (k = 3) leaves in the output tile: what the accumulator held plus the product of the step's two
    tiles, plus the bias row, plus the per-row column. -/
theorem out_last (c : Dev nD) (i : grid0.Coords) (arg3 : Memref sig .tc .vmem S1024x1024 .f32) (harg3 : arg3.IsWhole) (arg4 : Memref sig .tc .vmem S512x1024 .f32) (harg4 : arg4.IsWhole) (arg5 : Memref sig .tc .vmem S1x512 .f32) (harg5 : arg5.IsWhole) (arg6 : Memref sig .tc .vmem S1024x1 .f32) (harg6 : arg6.IsWhole) (arg7 : Memref sig .tc .vmem S1024x512 .f32) (harg7 : arg7.IsWhole) (arg8 : Memref sig .tc .vmem S1024x512 .f32) (harg8 : arg8.IsWhole) (hc0 : ¬cond0_0 i) (hc1 : cond0_1 i)
    (x0 : Vec F S1024x1024 .f32) (x1 : Vec F S512x1024 .f32) (x2 : Vec F S1x512 .f32) (x3 : Vec F S1024x1 .f32) (xs0 : Vec F S1024x512 .f32) :
    out0_C_4 c i arg3 harg3 arg4 harg4 arg5 harg5 arg6 harg6 arg7 harg7 arg8 harg8 hc0 hc1 x0 x1 x2 x3 xs0 = k0_pay3 (k0_pay2 x0 x1 xs0) x2 x3 := by
  unfold out0_C_4
  rw [View.read_writes_eq_canon _ _ _ (cover0_C_4 c i arg3 harg3 arg4 harg4 arg5 harg5 arg6 harg6 arg7 harg7 arg8 harg8 hc0 hc1 x0 x1 x2 x3 xs0)]
  unfold kernelRun0_C
  dsimp only
  sl_unfold_words
  rw [View.canon_unit_zero origin]
  simp only [View.readAt_eq_ld, harg3.read_unread, harg4.read_unread, harg5.read_unread, harg6.read_unread, harg8.read_unread,
    View.ld_unit_zero (S := S1024x1024) origin, View.ld_unit_zero (S := S512x1024) origin, View.ld_unit_zero (S := S1024x512) origin,
    View.ld_unit_zero (S := S1x512) origin, View.ld_unit_zero (S := S1024x1) origin]
  rw [View.readCov_unit_zero (S := S1024x512) _ origin]

end Cert.KernelIdeal.Pieces

end
-- ==== Proof.Chain.lean ====
/-
  The output tile written at the last step of a tile's four k-steps, as one nested term of the four steps' tiles.

  Grid points are numbered with k innermost, so the four k-steps of one output tile are four consecutive points
  t - 3, t - 2, t - 1, t with t ≡ 3 (mod 4): a first step, two middle steps, the last step. Unwinding the
  accumulator's contents through those four points gives the tile written at t as

      finish (step₃ (step₂ (step₁ (step₀ zero))))

  where stepₙ adds the product of point n's two input tiles and finish adds the bias row and the per-row column.
-/
import proofs.«133208_j50964081934821_1_alg».proof.Proof.Pieces

noncomputable section

open Idealize.ShloMosaic Idealize.ShloMosaic.TcCoe Idealize.SL.Sem
open Idealize.ShloMosaic.Pipeline (Dat)

namespace Cert.KernelIdeal.Chain

open Cert.KernelIdeal Cert.KernelIdeal.Gen Cert.KernelIdeal.Pieces

variable {F : FTy → Type} [FloatOps F]
variable (m : (ℓ : Loc nD τ sig) → Buf (Elt F) ℓ)

/-- The accumulator after a first step. -/
theorem acc_at_first (c : Dev nD) (n : ℕ) (h : n < cfg0.N) (h0 : n % 4 = 0) :
    (outsAt0 m c n h).2 = k0_pay2 (F := F) (iblk m c 0 ⟨n, h⟩) (iblk m c 1 ⟨n, h⟩) (k0_pay1 (F := F)) := by
  have h1 : ¬ n % 4 = 3 := by omega
  rw [outsAt0_A m c ⟨n, h⟩ h0 h1]
  dsimp only
  exact acc_first (F := F) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) scM0_0 (Memref.isWhole_whole _) ((hcond0_0 ⟨n, h⟩).mpr h0) (fun hh => h1 ((hcond0_1 ⟨n, h⟩).mp hh))
      (iblk m c 0 ⟨n, h⟩) (iblk m c 1 ⟨n, h⟩) (iblk m c 2 ⟨n, h⟩) (iblk m c 3 ⟨n, h⟩)

/-- The accumulator after a middle step, over what the point before left in it. -/
theorem acc_at_middle (c : Dev nD) (n : ℕ) (h : n < cfg0.N) (h0 : ¬ n % 4 = 0) (h1 : ¬ n % 4 = 3) :
    (outsAt0 m c n h).2 = k0_pay2 (F := F) (iblk m c 0 ⟨n, h⟩) (iblk m c 1 ⟨n, h⟩)
      (outsAt0 m c (n - 1) (Nat.lt_of_le_of_lt (Nat.sub_le _ _) h)).2 := by
  rw [outsAt0_B m c ⟨n, h⟩ h0 h1]
  dsimp only
  exact acc_middle (F := F) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) scM0_0 (Memref.isWhole_whole _) (fun hh => h0 ((hcond0_0 ⟨n, h⟩).mp hh)) (fun hh => h1 ((hcond0_1 ⟨n, h⟩).mp hh))
      (iblk m c 0 ⟨n, h⟩) (iblk m c 1 ⟨n, h⟩) (iblk m c 2 ⟨n, h⟩) (iblk m c 3 ⟨n, h⟩) (outsAt0 m c (n - 1) (Nat.lt_of_le_of_lt (Nat.sub_le _ _) h)).2

/-- The output tile after a last step, over what the point before left in the accumulator. -/
theorem out_at_last (c : Dev nD) (n : ℕ) (h : n < cfg0.N) (h0 : ¬ n % 4 = 0) (h1 : n % 4 = 3) :
    (outsAt0 m c n h).1 = k0_pay3 (F := F) (k0_pay2 (F := F) (iblk m c 0 ⟨n, h⟩) (iblk m c 1 ⟨n, h⟩)
      (outsAt0 m c (n - 1) (Nat.lt_of_le_of_lt (Nat.sub_le _ _) h)).2) (iblk m c 2 ⟨n, h⟩) (iblk m c 3 ⟨n, h⟩) := by
  rw [outsAt0_C m c ⟨n, h⟩ h0 h1]
  dsimp only
  exact out_last (F := F) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) scM0_0 (Memref.isWhole_whole _) (fun hh => h0 ((hcond0_0 ⟨n, h⟩).mp hh)) ((hcond0_1 ⟨n, h⟩).mpr h1)
      (iblk m c 0 ⟨n, h⟩) (iblk m c 1 ⟨n, h⟩) (iblk m c 2 ⟨n, h⟩) (iblk m c 3 ⟨n, h⟩) (outsAt0 m c (n - 1) (Nat.lt_of_le_of_lt (Nat.sub_le _ _) h)).2

/-- THE TILE WRITTEN AT A LAST STEP n: the four products of the points n - 3 … n added in that order onto the zero
    block, then the bias row and the per-row column of point n. -/
theorem out_at_flush (c : Dev nD) (n : ℕ) (h : n < cfg0.N) (h3 : n % 4 = 3)
    (hc : n - 1 < cfg0.N) (hb : n - 1 - 1 < cfg0.N) (ha : n - 1 - 1 - 1 < cfg0.N) :
    (outsAt0 m c n h).1
      = k0_pay3 (F := F) (k0_pay2 (F := F) (iblk m c 0 ⟨n, h⟩) (iblk m c 1 ⟨n, h⟩)
          (k0_pay2 (F := F) (iblk m c 0 ⟨n - 1, hc⟩) (iblk m c 1 ⟨n - 1, hc⟩)
            (k0_pay2 (F := F) (iblk m c 0 ⟨n - 1 - 1, hb⟩) (iblk m c 1 ⟨n - 1 - 1, hb⟩)
              (k0_pay2 (F := F) (iblk m c 0 ⟨n - 1 - 1 - 1, ha⟩) (iblk m c 1 ⟨n - 1 - 1 - 1, ha⟩) (k0_pay1 (F := F))))))
          (iblk m c 2 ⟨n, h⟩) (iblk m c 3 ⟨n, h⟩) := by
  rw [out_at_last m c n h (by omega) h3,
    acc_at_middle m c (n - 1) hc (by omega) (by omega),
    acc_at_middle m c (n - 1 - 1) hb (by omega) (by omega),
    acc_at_first m c (n - 1 - 1 - 1) ha (by omega)]

end Cert.KernelIdeal.Chain

end
-- ==== Proof.LibGram.lean ====
/-
  The product of an [M, K] matrix with the transpose of an [N, K] matrix — both operands contracted on their second
  axis — read at an output index. Independent of any program.

  With no batch axis the contraction index has one coordinate, running over the K shared positions; at the output
  index (p, q) the left operand is read at (p, k) and the right at (q, k). So the contraction's sum over its own index
  type is the sum over k of l (p, k) · r (q, k): the inner product of row p of the left operand with row q of the
  right one.
-/
import Idealize.ShloMosaic.Lib.ValueIdx
import Idealize.ShloMosaic.PureOps.Ideal
import Idealize.ShloMosaic.PureOps.Ideal.Laws

noncomputable section

namespace Cert.Lib

open Idealize.ShloMosaic Idealize.ShloMosaic.ValueIdx

/-- The dimension numbers of a product of rows with rows, [M, K] × [N, K] → [M, N]. -/
abbrev rowsDot (M K N : Nat)
    (wf : DotDims.WF ⟨2, ![M, K]⟩ ⟨2, ![N, K]⟩ ⟨2, ![M, N]⟩ [1] [1] [0] [0] [] []) :
    DotDims ⟨2, ![M, K]⟩ ⟨2, ![N, K]⟩ ⟨2, ![M, N]⟩ where
  lhsContracting := [1]
  rhsContracting := [1]
  lhsNonContracting := [0]
  rhsNonContracting := [0]
  lhsBatch := []
  rhsBatch := []
  wf := wf

/-- THE CONTRACTION AS A SUM OVER k: at the output index (p, q) the product's terms are l (p, k) · r (q, k). -/
theorem rowsDot_sum {M K N : Nat}
    (wf : DotDims.WF ⟨2, ![M, K]⟩ ⟨2, ![N, K]⟩ ⟨2, ![M, N]⟩ [1] [1] [0] [0] [] [])
    (l : (⟨2, ![M, K]⟩ : Shape).Idx → EReal) (r : (⟨2, ![N, K]⟩ : Shape).Idx → EReal) (p : Fin M) (q : Fin N) :
    ∑ k : (rowsDot M K N wf).contr.Idx,
        l ((rowsDot M K N wf).lhsIdx (ix2 p q) k) * r ((rowsDot M K N wf).rhsIdx (ix2 p q) k)
      = ∑ k : Fin K, l (ix2 p k) * r (ix2 q k) := by
  rw [← Equiv.sum_comp (contrEquiv1 (rowsDot M K N wf) K rfl rfl).symm]
  refine Finset.sum_congr rfl fun k _ => ?_
  have hk := contrEquiv1_symm_val (rowsDot M K N wf) K rfl rfl k
  have el : (rowsDot M K N wf).lhsIdx (ix2 p q) ((contrEquiv1 (rowsDot M K N wf) K rfl rfl).symm k) = ix2 p k :=
    funext fun a => Fin.ext (by
      match a with
      | ⟨0, _⟩ =>
        show ((rowsDot M K N wf).lhsIdx (ix2 p q) ((contrEquiv1 (rowsDot M K N wf) K rfl rfl).symm k) 0).val = p.val
        unfold DotDims.lhsIdx
        rw [dif_neg (show ¬ (0 : Fin 2) ∈ ([] : List (Fin 2)) from List.not_mem_nil),
          dif_pos (show (0 : Fin 2) ∈ ([0] : List (Fin 2)) from List.mem_singleton.mpr rfl)]
        rfl
      | ⟨1, _⟩ => exact ((rowsDot M K N wf).lhsIdx_val_of_single rfl (ix2 p q) _).trans hk)
  have er : (rowsDot M K N wf).rhsIdx (ix2 p q) ((contrEquiv1 (rowsDot M K N wf) K rfl rfl).symm k) = ix2 q k :=
    funext fun a => Fin.ext (by
      match a with
      | ⟨0, _⟩ =>
        show ((rowsDot M K N wf).rhsIdx (ix2 p q) ((contrEquiv1 (rowsDot M K N wf) K rfl rfl).symm k) 0).val = q.val
        unfold DotDims.rhsIdx
        rw [dif_neg (show ¬ (0 : Fin 2) ∈ ([] : List (Fin 2)) from List.not_mem_nil),
          dif_pos (show (0 : Fin 2) ∈ ([0] : List (Fin 2)) from List.mem_singleton.mpr rfl)]
        rfl
      | ⟨1, _⟩ => exact ((rowsDot M K N wf).rhsIdx_val_of_single rfl (ix2 p q) _).trans hk)
  rw [el, er]

/-- A kernel's product of rows with rows into a zero accumulator, at (p, q). -/
theorem matmul_rows_zero_apply {M K N : Nat} {φ₁ φ₂ : FTy}
    (wf : DotDims.WF ⟨2, ![M, K]⟩ ⟨2, ![N, K]⟩ ⟨2, ![M, N]⟩ [1] [1] [0] [0] [] [])
    (prec : Option ContractPrecision) (l : FVec Ideal ⟨2, ![M, K]⟩ φ₁) (r : FVec Ideal ⟨2, ![N, K]⟩ φ₂)
    (p : Fin M) (q : Fin N) :
    FloatOps.matmul (rowsDot M K N wf) prec l r (constant (F := Ideal) ⟨2, ![M, N]⟩ .f32 0x00000000#32) (ix2 p q)
      = ∑ k : Fin K, l (ix2 p k) * r (ix2 q k) := by
  rw [Ideal.matmul_constant_zero_apply]
  exact rowsDot_sum wf l r p q

/-- The host's product of rows with rows, at (p, q). -/
theorem dotGeneral_rows_apply {M K N : Nat} {φ₁ φ₂ : FTy}
    (wf : DotDims.WF ⟨2, ![M, K]⟩ ⟨2, ![N, K]⟩ ⟨2, ![M, N]⟩ [1] [1] [0] [0] [] [])
    (prec : Option ContractPrecision) (sched : HostSchedule) (l : FVec Ideal ⟨2, ![M, K]⟩ φ₁) (r : FVec Ideal ⟨2, ![N, K]⟩ φ₂)
    (p : Fin M) (q : Fin N) :
    FloatOps.dotGeneral (rowsDot M K N wf) prec sched l r (ix2 p q)
      = ∑ k : Fin K, l (ix2 p k) * r (ix2 q k) := by
  rw [Ideal.dotGeneral_apply]
  exact rowsDot_sum wf l r p q

end Cert.Lib

end
-- ==== Proof.LibRow.lean ====
/-
  A row is an array of shape [1, b]. Broadcasting it to [a, b] repeats the row a times, so the entry at (p, q) is the
  row's entry at (0, q). Independent of any program.
-/
import Idealize.ShloMosaic.Lib.ValueIdx
import Idealize.ShloMosaic.Lib.Pipeline.Value

noncomputable section

namespace Cert.Lib

open Idealize.ShloMosaic Idealize.ShloMosaic.ValueIdx

/-- A row [1, b] broadcast to [a, b] reads, at (p, q), the row's entry at (0, q). -/
theorem broadcastTo_1b_ab_apply {α : Type} {a b : ℕ} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if b = 1 then 0 else q.val
    split
    · have := q.isLt; omega
    · rfl

end Cert.Lib

end
-- ==== Proof.LibColumn.lean ====
/-
  Layout facts about columns and rows, independent of any program.

  A column is an array of shape [a, 1]. Broadcasting it to [a, b] repeats each row's single entry across the b
  positions of that row, so the entry at (p, c) is the column's entry at row p. Casting a vector of shape [a] to the
  column shape [a, 1] keeps the row-major order, so the entry at (i, 0) is the vector's entry at i.

  The host spells the same repetitions with an explicit map from the operand's axes to the result's axes: a vector
  [b] placed on axis 1 of [1, b] is read at its own position; a vector [a] placed on axis 0 of [a, 1] likewise; a row
  [1, b] or a column [a, 1] repeated to [a, b] is read at the one row, or the one column, it has; a scalar repeated to
  any shape is read at its one entry.
-/
import Idealize.ShloMosaic.Lib.ValueIdx
import Idealize.ShloMosaic.Lib.Pipeline.Value

noncomputable section

namespace Cert.Lib

open Idealize.ShloMosaic Idealize.ShloMosaic.ValueIdx

variable {α : Type}

/-- A column [a, 1] broadcast to [a, b] reads, at (p, c), the column's entry at row p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector [a] cast to the column shape [a, 1] reads, at (i, u), the vector's entry at i. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A vector [b] placed on axis 1 of [1, b] reads, at (u, q), the vector's entry at q. -/
theorem broadcastInDim_b_1b_apply {b : ℕ} (x : (⟨1, ![b]⟩ : Shape).Idx → α)
    (h : (⟨1, ![b]⟩ : Shape).BroadcastsInDim ⟨2, ![1, b]⟩ ![1]) (u : Fin 1) (q : Fin b) :
    broadcastInDim ⟨2, ![1, b]⟩ ![1] h x (ix2 u q) = x (ix1 q) := by
  refine broadcastInDim_apply ![1] h x (ix2 u q) (ix1 q) fun ax => ?_
  match ax with
  | ⟨0, _⟩ =>
    show q.val = if b = 1 then 0 else q.val
    split
    · have := q.isLt; omega
    · rfl

/-- A vector [a] placed on axis 0 of [a, 1] reads, at (p, u), the vector's entry at p. -/
theorem broadcastInDim_a_a1_apply {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply ![0] h x (ix2 p u) (ix1 p) fun ax => ?_
  match ax with
  | ⟨0, _⟩ =>
    show p.val = if a = 1 then 0 else p.val
    split
    · have := p.isLt; omega
    · rfl

/-- A row [1, b] repeated to [a, b], axes kept in place, reads at (p, q) the row's entry at q. -/
theorem broadcastInDim_1b_ab_apply {a b : ℕ} (x : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h x (ix2 p q) = x (ix2 (0 : Fin 1) q) := by
  refine broadcastInDim_apply ![0, 1] h x (ix2 p q) (ix2 (0 : Fin 1) q) fun ax => ?_
  match ax with
  | ⟨0, _⟩ => rfl
  | ⟨1, _⟩ =>
    show q.val = if b = 1 then 0 else q.val
    split
    · have := q.isLt; omega
    · rfl

/-- A column [a, 1] repeated to [a, b], axes kept in place, reads at (p, q) the column's entry at p. -/
theorem broadcastInDim_a1_ab_apply {a b : ℕ} (x : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h x (ix2 p q) = x (ix2 p (0 : Fin 1)) := by
  refine broadcastInDim_apply ![0, 1] h x (ix2 p q) (ix2 p (0 : Fin 1)) fun ax => ?_
  match ax with
  | ⟨0, _⟩ =>
    show p.val = if a = 1 then 0 else p.val
    split
    · have := p.isLt; omega
    · rfl
  | ⟨1, _⟩ => rfl

/-- A scalar repeated to any shape reads, everywhere, its one entry. -/
theorem broadcastInDim_scalar_apply {s : Shape} (x : (⟨0, ![]⟩ : Shape).Idx → α)
    (h : (⟨0, ![]⟩ : Shape).BroadcastsInDim s ![]) (i : s.Idx) :
    broadcastInDim s ![] h x i = x ix0 :=
  broadcastInDim_apply ![] h x i ix0 fun ax => ax.elim0

end Cert.Lib

end
-- ==== Proof.Payload.lean ====
/-
  The body's three pieces of arithmetic read at one entry (r, s) of a [1024, 512] tile, over the extended reals.

  zero:    the block of zeros the accumulator starts from;
  step:    the accumulator plus the product of a [1024, 1024] tile of x with the transpose of a [512, 1024] tile of W —
           at (r, s) the accumulator's entry plus Σₖ x(r, k) · w(s, k); the operands' change of format before the
           product is the identity here;
  finish:  the accumulator plus the bias row [1, 512] repeated over the rows plus the column [1024, 1] repeated over
           the columns — at (r, s) the accumulator's entry plus b(0, s) plus e(r, 0).
-/
import proofs.«133208_j50964081934821_1_alg».proof.Proof.Gen.KernelIdeal.Skeleton
import proofs.«133208_j50964081934821_1_alg».proof.Proof.LibGram
import proofs.«133208_j50964081934821_1_alg».proof.Proof.LibRow
import proofs.«133208_j50964081934821_1_alg».proof.Proof.LibColumn
import Idealize.ShloMosaic.Lib.Pipeline.Value
import Idealize.ShloMosaic.PureOps.Ideal.Laws

noncomputable section

namespace Cert.KernelIdeal.Payload

open Idealize.ShloMosaic Idealize.ShloMosaic.ValueIdx Cert.KernelIdeal Cert.KernelIdeal.Gen

/-- The zero block at (r, s) is 0. -/
theorem zero_apply (r : Fin 1024) (s : Fin 512) : k0_pay1 (F := Ideal) (ix2 r s) = 0 := by
  unfold k0_pay1
  rw [shapeCast_self]
  exact Ideal.ofBits_zero_f32

/-- One accumulation step at (r, s): the accumulator's entry plus the inner product of row r of the x-tile with row s
    of the W-tile. -/
theorem step_apply (x : Vec Ideal S1024x1024 .f32) (w : Vec Ideal S512x1024 .f32) (a : Vec Ideal S1024x512 .f32)
    (r : Fin 1024) (s : Fin 512) :
    k0_pay2 (F := Ideal) x w a (ix2 r s) = a (ix2 r s) + ∑ k : Fin 1024, x (ix2 r k) * w (ix2 s k) := by
  unfold k0_pay2
  rw [shapeCast_self]
  exact congrArg (a (ix2 r s) + ·)
    (Cert.Lib.matmul_rows_zero_apply (M := 1024) (K := 1024) (N := 512) _ none
      (truncf (F := Ideal) .bf16 x Facts₀.bitsLt_bf16_f32) (truncf (F := Ideal) .bf16 w Facts₀.bitsLt_bf16_f32) r s)

/-- The closing step at (r, s): the accumulator's entry plus the bias row's entry in column s plus the column's entry
    in row r. -/
theorem finish_apply (a : Vec Ideal S1024x512 .f32) (b : Vec Ideal S1x512 .f32) (e : Vec Ideal S1024x1 .f32)
    (r : Fin 1024) (s : Fin 512) :
    k0_pay3 (F := Ideal) a b e (ix2 r s) = a (ix2 r s) + b (ix2 (0 : Fin 1) s) + e (ix2 r (0 : Fin 1)) := by
  unfold k0_pay3
  rw [shapeCast_self, shapeCast_self]
  show a (ix2 r s) + broadcastTo S1024x512 b _ (ix2 r s) + broadcastTo S1024x512 e _ (ix2 r s) = _
  rw [Cert.Lib.broadcastTo_1b_ab_apply, Cert.Lib.broadcastTo_a1_ab_apply]

/-- THE WHOLE TILE at (r, s): zero, four accumulation steps in order, then the closing step — the four inner products of
    1024 terms each added in order onto 0, plus the bias row's entry, plus the column's entry. -/
theorem tile_value (x0 x1 x2 x3 : Vec Ideal S1024x1024 .f32) (w0 w1 w2 w3 : Vec Ideal S512x1024 .f32)
    (b : Vec Ideal S1x512 .f32) (e : Vec Ideal S1024x1 .f32) (r : Fin 1024) (s : Fin 512) :
    k0_pay3 (F := Ideal) (k0_pay2 x3 w3 (k0_pay2 x2 w2 (k0_pay2 x1 w1 (k0_pay2 x0 w0 (k0_pay1 (F := Ideal)))))) b e (ix2 r s)
      = ((((0 + ∑ k : Fin 1024, x0 (ix2 r k) * w0 (ix2 s k)) + ∑ k : Fin 1024, x1 (ix2 r k) * w1 (ix2 s k))
            + ∑ k : Fin 1024, x2 (ix2 r k) * w2 (ix2 s k)) + ∑ k : Fin 1024, x3 (ix2 r k) * w3 (ix2 s k))
          + b (ix2 (0 : Fin 1) s) + e (ix2 r (0 : Fin 1)) := by
  rw [finish_apply, step_apply, step_apply, step_apply, step_apply, zero_apply]

end Cert.KernelIdeal.Payload

end
-- ==== Proof.LibTileSum.lean ====
/-
  Two small facts about sums and columns, independent of any program.

  A sum over the first m·n naturals can be taken tile by tile: n consecutive tiles of m positions each, tile s holding
  the positions m·s, m·s + 1, …, m·s + (m − 1). Only commutativity and associativity of the addition are used, so the
  fact holds in every commutative additive monoid — the extended reals included, infinities and all.

  A column of shape [a, 1] cast to the vector shape [a] keeps the row-major order, so the vector's entry at i is the
  column's entry at (i, 0).
-/
import Idealize.ShloMosaic.Lib.ValueIdx
import Idealize.ShloMosaic.Lib.Pipeline.Value

noncomputable section

namespace Cert.Lib

open Idealize.ShloMosaic Idealize.ShloMosaic.ValueIdx

/-- The first m·n naturals, summed tile by tile. -/
theorem sum_range_tiles {β : Type*} [AddCommMonoid β] (g : ℕ → β) (m : ℕ) : ∀ n : ℕ,
    ∑ s ∈ Finset.range n, ∑ q ∈ Finset.range m, g (m * s + q) = ∑ k ∈ Finset.range (m * n), g k
  | 0 => by simp
  | n + 1 => by
    rw [Finset.sum_range_succ, sum_range_tiles g m n, Nat.mul_succ, Finset.sum_range_add]

/-- The same with each tile's positions and the whole range as finite index types. -/
theorem sum_fin_tiles {β : Type*} [AddCommMonoid β] (g : ℕ → β) (m n : ℕ) {N : ℕ} (hN : m * n = N) :
    ∑ s ∈ Finset.range n, ∑ q : Fin m, g (m * s + q.val) = ∑ k : Fin N, g k.val := by
  subst hN
  rw [← Finset.sum_range (fun k => g k), ← sum_range_tiles g m n]
  exact Finset.sum_congr rfl fun s _ => (Finset.sum_range (fun q => g (m * s + q))).symm

variable {α : Type}

/-- A column [a, 1] cast to the vector shape [a] reads, at i, the column's entry at (i, 0). -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Cert.Lib

end
-- ==== Proof.Spec.lean ====
/-
  The function both programs compute, and the one law that joins their two arrangements of it.

  For x of shape [8192, 4096], W of shape [4096, 4096], a bias vector b of length 4096 and a per-row vector e of
  length 8192, the result at (p, q) is

      (Σₖ x(p, k) · W(q, k)  +  b(q))  +  e(p),        k = 0 … 4095,

  over the extended reals. The reference takes the sum over k at once. The kernel takes it in four tiles of 1024
  consecutive positions, added one after the other onto a zero: (((0 + T₀) + T₁) + T₂) + T₃. Addition of extended
  reals is commutative and associative (infinities included), and that is all the regrouping uses, so the two agree for
  every input: no finiteness is needed.
-/
import Idealize.ShloMosaic.PureOps.Ideal
import Idealize.ShloMosaic.Lib.ValueIdx
import proofs.«133208_j50964081934821_1_alg».proof.Proof.LibTileSum

noncomputable section

namespace Cert.Spec

open Idealize.ShloMosaic Idealize.ShloMosaic.ValueIdx

/-- The k-th term of the inner product of row p of x with row q of W. -/
def rowTerm (X : (⟨2, ![8192, 4096]⟩ : Shape).Idx → EReal) (W : (⟨2, ![4096, 4096]⟩ : Shape).Idx → EReal)
    (p : Fin 8192) (q : Fin 4096) (k : Fin 4096) : EReal :=
  X (ix2 p k) * W (ix2 q k)

/-- The result at row p, column q: the inner product of row p of x with row q of W, plus b(q), plus e(p). -/
def affine (X : (⟨2, ![8192, 4096]⟩ : Shape).Idx → EReal) (W : (⟨2, ![4096, 4096]⟩ : Shape).Idx → EReal)
    (b : (⟨1, ![4096]⟩ : Shape).Idx → EReal) (e : (⟨1, ![8192]⟩ : Shape).Idx → EReal) (p : Fin 8192) (q : Fin 4096) : EReal :=
  (∑ k : Fin 4096, rowTerm X W p q k) + b (ix1 q) + e (ix1 p)

/-- The whole result array. -/
def affineArr (X : (⟨2, ![8192, 4096]⟩ : Shape).Idx → EReal) (W : (⟨2, ![4096, 4096]⟩ : Shape).Idx → EReal)
    (b : (⟨1, ![4096]⟩ : Shape).Idx → EReal) (e : (⟨1, ![8192]⟩ : Shape).Idx → EReal) :
    (⟨2, ![8192, 4096]⟩ : Shape).Idx → EReal :=
  fun i => affine X W b e (i 0) (i 1)

/-- THE PER-ROW VECTOR e both programs compute on the host, from the integer array n of shape [8192, 1000]: row p's mean
    of the entries read as reals — zero plus their sum, divided by 1000 — divided by 15. The same four host operations
    in both programs, so it is kept as one term and never opened. -/
def expectation {F : FTy → Type} [FloatOps F]
    (hr : (⟨2, ![8192, 1000]⟩ : Shape).ReducesTo [1] ⟨1, ![8192]⟩) (hs : 0 < (⟨0, ![]⟩ : Shape).numel)
    (hb : (⟨0, ![]⟩ : Shape).BroadcastsInDim ⟨1, ![8192]⟩ (![] : Fin 0 → Fin (⟨1, ![8192]⟩ : Shape).rank))
    (n : (⟨⟨2, ![8192, 1000]⟩, .i32⟩ : BufTy).Contents (Elt F)) : FVec F ⟨1, ![8192]⟩ .f32 :=
  Host.divf
    (Host.divf (Host.reduceAdd (sitofp .f32 n) (constant ⟨0, ![]⟩ .f32 0x00000000#32) hr hs)
      (broadcastInDim ⟨1, ![8192]⟩ ![] hb (constant ⟨0, ![]⟩ .f32 0x447A0000#32)))
    (broadcastInDim ⟨1, ![8192]⟩ ![] hb (constant ⟨0, ![]⟩ .f32 0x41700000#32))

/-- FOUR TILES MAKE THE SUM: if tile s lists the terms 1024·s, …, 1024·s + 1023 of f, then the four tile sums added in
    order onto zero are the sum of f over all 4096 positions. -/
theorem sum_four_tiles (f : Fin 4096 → EReal) (t0 t1 t2 t3 : Fin 1024 → EReal)
    (h0 : ∀ k : Fin 1024, t0 k = f ⟨1024 * 0 + k.val, by omega⟩)
    (h1 : ∀ k : Fin 1024, t1 k = f ⟨1024 * 1 + k.val, by omega⟩)
    (h2 : ∀ k : Fin 1024, t2 k = f ⟨1024 * 2 + k.val, by omega⟩)
    (h3 : ∀ k : Fin 1024, t3 k = f ⟨1024 * 3 + k.val, by omega⟩) :
    (((0 + ∑ k, t0 k) + ∑ k, t1 k) + ∑ k, t2 k) + ∑ k, t3 k = ∑ k, f k := by
  let g : ℕ → EReal := fun n => if h : n < 4096 then f ⟨n, h⟩ else 0
  have hg : ∀ k : Fin 4096, f k = g k.val := fun k => by
    show f k = if h : k.val < 4096 then f ⟨k.val, h⟩ else 0
    rw [dif_pos k.isLt]
  have ht : ∀ (s : ℕ) (hs : s < 4) (t : Fin 1024 → EReal),
      (∀ k : Fin 1024, t k = f ⟨1024 * s + k.val, by omega⟩) → ∑ k, t k = ∑ k : Fin 1024, g (1024 * s + k.val) := by
    intro s hs t h
    refine Finset.sum_congr rfl fun k _ => ?_
    rw [h k]
    show _ = if h : 1024 * s + k.val < 4096 then f ⟨1024 * s + k.val, h⟩ else 0
    rw [dif_pos (by omega)]
  rw [Finset.sum_congr rfl fun k _ => hg k, ← Cert.Lib.sum_fin_tiles g 1024 4 rfl,
    ht 0 (by omega) t0 h0, ht 1 (by omega) t1 h1, ht 2 (by omega) t2 h2, ht 3 (by omega) t3 h3]
  simp only [Finset.sum_range_succ, Finset.sum_range_zero]

end Cert.Spec

end
-- ==== Proof.LibRowCast.lean ====
/-
  A vector of shape [b] cast to the one-row shape [1, b] keeps the row-major order, so the row's entry at (0, q) is the
  vector's entry at q. Independent of any program.
-/
import Idealize.ShloMosaic.Lib.ValueIdx
import Idealize.ShloMosaic.Lib.Pipeline.Value

noncomputable section

namespace Cert.Lib

open Idealize.ShloMosaic Idealize.ShloMosaic.ValueIdx

/-- A vector [b] cast to the row shape [1, b] reads, at (u, q), the vector's entry at q. -/
theorem shapeCast_b_1b_apply {α : Type} {b : ℕ} (x : (⟨1, ![b]⟩ : Shape).Idx → α)
    (h : (⟨1, ![b]⟩ : Shape).ShapeCasts ⟨2, ![1, b]⟩) (u : Fin 1) (q : Fin b) :
    shapeCast ⟨2, ![1, b]⟩ x h (ix2 u q) = x (ix1 q) :=
  shapeCast_apply x h _ _ (by
    have hu : u.val = 0 := by omega
    rw [Shape.rowMajor_val_two, Shape.rowMajor_val_one]
    show q.val = u.val * b + q.val
    rw [hu, Nat.zero_mul, Nat.zero_add])

end Cert.Lib

end
-- ==== Proof.Blocks.lean ====
/-
  Where each tile the kernel is handed sits in the whole arrays.

  Grid point t stands for (i, j, k) = (t / 32, t / 4 mod 8, t mod 4). At that point the kernel is given
    rows 1024·i … of x, columns 1024·k … (a [1024, 1024] tile);
    rows 512·j … of W, columns 1024·k … (a [512, 1024] tile);
    columns 512·j … of the bias laid out as one row [1, 4096] (a [1, 512] tile);
    rows 1024·i … of the per-row vector laid out as one column [8192, 1] (a [1024, 1] tile);
  and it writes rows 1024·i …, columns 512·j … of the result (a [1024, 512] tile). The row is the bias vector b
  reshaped, the column is the host-computed vector e reshaped; both reshapes keep the entries in order.

  So an entry of a tile is an entry of x, W, b or e at the tile's offset plus the position inside the tile.
-/
import Idealize.ShloMosaic.Lib.ValueIdx
import proofs.«133208_j50964081934821_1_alg».proof.Proof.Gen.KernelIdeal.Frame
import proofs.«133208_j50964081934821_1_alg».proof.Proof.Spec
import proofs.«133208_j50964081934821_1_alg».proof.Proof.LibColumn
import proofs.«133208_j50964081934821_1_alg».proof.Proof.LibRowCast
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Blocks

open Cert.KernelIdeal Cert.KernelIdeal.Gen Idealize.ShloMosaic.ValueIdx Idealize.ShloMosaic.StableHlo

variable {F : FTy → Type} [FloatOps F]
variable (m : (ℓ : Loc nD τ sig) → Buf (Elt F) ℓ)

/-- The one-row array the kernel reads the bias from is the bias vector reshaped. -/
theorem bias_row (c : Dev nD) : (V m c main_v6 : S1x4096.Idx → Elt F .f32)
    = shapeCast S1x4096 (m ((c : Thread nD τ).loc main_arg2)) Facts₀.shapeCasts_S4096_S1x4096 := by
  dsimp only [Gen.V, Gen.hostOps0]
  after_results
  rfl

/-- The one-column array the kernel reads the per-row term from is the host-computed vector e reshaped. -/
theorem e_column (c : Dev nD) : (V m c main_v7 : S8192x1.Idx → Elt F .f32)
    = shapeCast S8192x1 (Cert.Spec.expectation Facts₀.reducesTo_S8192x1000_S8192_d1 Facts₀.h_S_ Facts₀.bcast_S_S8192
        (m ((c : Thread nD τ).loc main_arg3))) Facts₀.shapeCasts_S8192_S8192x1 := by
  dsimp only [Gen.V, Gen.hostOps0]
  after_results
  rfl

/-- The tiles' block indices at grid point t, decided over the grid: t = (i, j, k) with i = t / 32, j = t / 4 mod 8,
    k = t mod 4. -/
theorem tile_index : ∀ t : Fin cfg0.N,
    win0_0.index t (0 : Fin 2) = t.val / 32 ∧ win0_0.index t (1 : Fin 2) = t.val % 4
  ∧ win0_1.index t (0 : Fin 2) = t.val / 4 % 8 ∧ win0_1.index t (1 : Fin 2) = t.val % 4
  ∧ win0_2.index t (0 : Fin 2) = 0 ∧ win0_2.index t (1 : Fin 2) = t.val / 4 % 8
  ∧ win0_3.index t (0 : Fin 2) = t.val / 32 ∧ win0_3.index t (1 : Fin 2) = 0
  ∧ win0_4.index t (0 : Fin 2) = t.val / 32 ∧ win0_4.index t (1 : Fin 2) = t.val / 4 % 8 :=
  (by decide +kernel : ∀ t : Fin grid0.N, _)

/-- The x-tile at point t, entry (r, k): x at row 1024·i + r, column 1024·k' + k. -/
theorem x_tile_apply (c : Dev nD) (t : Fin cfg0.N) (r k : Fin 1024) (P : Fin 8192) (K : Fin 4096)
    (hP : P.val = 1024 * (t.val / 32) + r.val) (hK : K.val = 1024 * (t.val % 4) + k.val) :
    (iblk m c 0 t : Vec F S1024x1024 .f32) (ix2 r k) = m ((c : Thread nD τ).loc main_arg0) (ix2 P K) := by
  obtain ⟨e0, e1, -⟩ := tile_index t
  unfold iblk
  rw [View.read_apply]
  show V m c main_arg0 _ = _
  rw [V_main_arg0 m c]
  refine congrArg _ (funext fun a => Fin.ext ?_)
  match a with
  | ⟨0, _⟩ => show win0_0.index t (0 : Fin 2) * 1024 + 1 * r.val = P.val; rw [e0, hP]; omega
  | ⟨1, _⟩ => show win0_0.index t (1 : Fin 2) * 1024 + 1 * k.val = K.val; rw [e1, hK]; omega

/-- The W-tile at point t, entry (s, k): W at row 512·j + s, column 1024·k' + k. -/
theorem w_tile_apply (c : Dev nD) (t : Fin cfg0.N) (s : Fin 512) (k : Fin 1024) (Q : Fin 4096) (K : Fin 4096)
    (hQ : Q.val = 512 * (t.val / 4 % 8) + s.val) (hK : K.val = 1024 * (t.val % 4) + k.val) :
    (iblk m c 1 t : Vec F S512x1024 .f32) (ix2 s k) = m ((c : Thread nD τ).loc main_arg1) (ix2 Q K) := by
  obtain ⟨-, -, e2, e3, -⟩ := tile_index t
  unfold iblk
  rw [View.read_apply]
  show V m c main_arg1 _ = _
  rw [V_main_arg1 m c]
  refine congrArg _ (funext fun a => Fin.ext ?_)
  match a with
  | ⟨0, _⟩ => show win0_1.index t (0 : Fin 2) * 512 + 1 * s.val = Q.val; rw [e2, hQ]; omega
  | ⟨1, _⟩ => show win0_1.index t (1 : Fin 2) * 1024 + 1 * k.val = K.val; rw [e3, hK]; omega

/-- The bias tile at point t, entry (0, s): b at 512·j + s. -/
theorem bias_tile_apply (c : Dev nD) (t : Fin cfg0.N) (s : Fin 512) (Q : Fin 4096)
    (hQ : Q.val = 512 * (t.val / 4 % 8) + s.val) :
    (iblk m c 2 t : Vec F S1x512 .f32) (ix2 (0 : Fin 1) s) = m ((c : Thread nD τ).loc main_arg2) (ix1 Q) := by
  obtain ⟨-, -, -, -, e4, e5, -⟩ := tile_index t
  unfold iblk
  rw [View.read_apply]
  show (V m c main_v6 : S1x4096.Idx → Elt F .f32) _ = _
  rw [bias_row m c]
  have hemb : ((cfg0.win 2).blk t).view.emb (ix2 (0 : Fin 1) s) = (ix2 (0 : Fin 1) Q : S1x4096.Idx) :=
    funext fun a => Fin.ext (by
      match a with
      | ⟨0, _⟩ => show win0_2.index t (0 : Fin 2) * 1 + 1 * 0 = 0; rw [e4]
      | ⟨1, _⟩ => show win0_2.index t (1 : Fin 2) * 512 + 1 * s.val = Q.val; rw [e5, hQ]; omega)
  rw [hemb]
  exact Cert.Lib.shapeCast_b_1b_apply _ _ 0 Q

/-- The column tile at point t, entry (r, 0): e at 1024·i + r. -/
theorem e_tile_apply (c : Dev nD) (t : Fin cfg0.N) (r : Fin 1024) (P : Fin 8192)
    (hP : P.val = 1024 * (t.val / 32) + r.val) :
    (iblk m c 3 t : Vec F S1024x1 .f32) (ix2 r (0 : Fin 1))
      = Cert.Spec.expectation Facts₀.reducesTo_S8192x1000_S8192_d1 Facts₀.h_S_ Facts₀.bcast_S_S8192
          (m ((c : Thread nD τ).loc main_arg3)) (ix1 P) := by
  obtain ⟨-, -, -, -, -, -, e6, e7, -⟩ := tile_index t
  unfold iblk
  rw [View.read_apply]
  show (V m c main_v7 : S8192x1.Idx → Elt F .f32) _ = _
  rw [e_column m c]
  have hemb : ((cfg0.win 3).blk t).view.emb (ix2 r (0 : Fin 1)) = (ix2 P (0 : Fin 1) : S8192x1.Idx) :=
    funext fun a => Fin.ext (by
      match a with
      | ⟨0, _⟩ => show win0_3.index t (0 : Fin 2) * 1024 + 1 * r.val = P.val; rw [e6, hP]; omega
      | ⟨1, _⟩ => show win0_3.index t (1 : Fin 2) * 1 + 1 * 0 = 0; rw [e7])
  rw [hemb]
  exact Cert.Lib.shapeCast_a_a1_apply _ _ P 0

/-- The result tile at point t, position (r, s), is the result array's entry (1024·i + r, 512·j + s). -/
theorem out_tile_emb (t : Fin cfg0.N) (r : Fin 1024) (s : Fin 512) (P : Fin 8192) (Q : Fin 4096)
    (hP : P.val = 1024 * (t.val / 32) + r.val) (hQ : Q.val = 512 * (t.val / 4 % 8) + s.val) :
    ((cfg0.win 4).blk t).view.emb (ix2 r s) = (ix2 P Q : S8192x4096.Idx) := by
  obtain ⟨-, -, -, -, -, -, -, -, e8, e9⟩ := tile_index t
  refine funext fun a => Fin.ext ?_
  match a with
  | ⟨0, _⟩ => show win0_4.index t (0 : Fin 2) * 1024 + 1 * r.val = P.val; rw [e8, hP]; omega
  | ⟨1, _⟩ => show win0_4.index t (1 : Fin 2) * 512 + 1 * s.val = Q.val; rw [e9, hQ]; omega

end Cert.KernelIdeal.Blocks

end
-- ==== Proof.KernelValue.lean ====
/-
  The kernel's result array is the specification.

  The output tile (i, j) is written once, at the last of its four k-steps (grid point t ≡ 3 mod 4). What is written at
  position (r, s) of the tile is the four inner products of 1024 terms — over the columns 0 … 1023, 1024 … 2047,
  2048 … 3071, 3072 … 4095 of row 1024·i + r of x and row 512·j + s of W — added in that order onto zero, plus
  b(512·j + s), plus e(1024·i + r). The four tiles of columns make up all 4096, so this is the specification's entry
  at (1024·i + r, 512·j + s). Every entry of the result lies in exactly such a tile, so the whole array ends holding
  the specification.
-/
import Idealize.ShloMosaic.Lib.ValueIdx
import proofs.«133208_j50964081934821_1_alg».proof.Proof.Gen.KernelIdeal.Value
import proofs.«133208_j50964081934821_1_alg».proof.Proof.Chain
import proofs.«133208_j50964081934821_1_alg».proof.Proof.Payload
import proofs.«133208_j50964081934821_1_alg».proof.Proof.Blocks
import proofs.«133208_j50964081934821_1_alg».proof.Proof.Spec

noncomputable section

open Idealize.ShloMosaic Idealize.ShloMosaic.TcCoe Idealize.SL.Sem
open Idealize.ShloMosaic.Pipeline (Dat)

namespace Cert.KernelIdeal.KernelValue

open Cert.KernelIdeal Cert.KernelIdeal.Gen Idealize.ShloMosaic.ValueIdx

variable (m : (ℓ : Loc nD τ sig) → Buf (Elt Ideal) ℓ) (ρ : Dev nD → PrngReg)

/-- What the result array ends holding: the specification of the four argument arrays. -/
abbrev result (c : Dev nD) : Buf (Elt Ideal) ((c : Thread nD τ).loc main_v8) :=
  Cert.Spec.affineArr (m ((c : Thread nD τ).loc main_arg0)) (m ((c : Thread nD τ).loc main_arg1))
    (m ((c : Thread nD τ).loc main_arg2))
    (Cert.Spec.expectation Facts₀.reducesTo_S8192x1000_S8192_d1 Facts₀.h_S_ Facts₀.bcast_S_S8192
      (m ((c : Thread nD τ).loc main_arg3)))

/-- THE TILE WRITTEN AT A LAST STEP, entry by entry, is the specification at the tile's place in the array. -/
theorem tile_entry (c : Dev nD) (t : Fin cfg0.N) (h3 : t.val % 4 = 3) (r : Fin 1024) (s : Fin 512)
    (P : Fin 8192) (Q : Fin 4096) (hP : P.val = 1024 * (t.val / 32) + r.val) (hQ : Q.val = 512 * (t.val / 4 % 8) + s.val) :
    (outsAt0 m c t.val t.isLt).1 (ix2 r s) = result m c (ix2 P Q) := by
  have hN : t.val < 256 := lt_of_lt_of_eq t.isLt N_0
  have hc : t.val - 1 < cfg0.N := lt_of_le_of_lt (by omega) t.isLt
  have hb : t.val - 1 - 1 < cfg0.N := lt_of_le_of_lt (by omega) t.isLt
  have ha : t.val - 1 - 1 - 1 < cfg0.N := lt_of_le_of_lt (by omega) t.isLt
  rw [Chain.out_at_flush m c t.val t.isLt h3 hc hb ha]
  refine (Payload.tile_value (iblk m c 0 ⟨t.val - 1 - 1 - 1, ha⟩) (iblk m c 0 ⟨t.val - 1 - 1, hb⟩)
    (iblk m c 0 ⟨t.val - 1, hc⟩) (iblk m c 0 ⟨t.val, t.isLt⟩) (iblk m c 1 ⟨t.val - 1 - 1 - 1, ha⟩)
    (iblk m c 1 ⟨t.val - 1 - 1, hb⟩) (iblk m c 1 ⟨t.val - 1, hc⟩) (iblk m c 1 ⟨t.val, t.isLt⟩)
    (iblk m c 2 ⟨t.val, t.isLt⟩) (iblk m c 3 ⟨t.val, t.isLt⟩) r s).trans ?_
  show _ = Cert.Spec.affine _ _ _ _ P Q
  unfold Cert.Spec.affine
  refine congrArg₂ (· + ·) (congrArg₂ (· + ·)
    (Cert.Spec.sum_four_tiles
      (Cert.Spec.rowTerm (m ((c : Thread nD τ).loc main_arg0)) (m ((c : Thread nD τ).loc main_arg1)) P Q)
      _ _ _ _ (fun k => ?_) (fun k => ?_) (fun k => ?_) (fun k => ?_)) ?_) ?_
  · exact congrArg₂ (· * ·)
      (Blocks.x_tile_apply m c ⟨t.val - 1 - 1 - 1, ha⟩ r k P _ (by show P.val = 1024 * ((t.val - 1 - 1 - 1) / 32) + r.val; omega)
        (by show 1024 * 0 + k.val = 1024 * ((t.val - 1 - 1 - 1) % 4) + k.val; omega))
      (Blocks.w_tile_apply m c ⟨t.val - 1 - 1 - 1, ha⟩ s k Q _ (by show Q.val = 512 * ((t.val - 1 - 1 - 1) / 4 % 8) + s.val; omega)
        (by show 1024 * 0 + k.val = 1024 * ((t.val - 1 - 1 - 1) % 4) + k.val; omega))
  · exact congrArg₂ (· * ·)
      (Blocks.x_tile_apply m c ⟨t.val - 1 - 1, hb⟩ r k P _ (by show P.val = 1024 * ((t.val - 1 - 1) / 32) + r.val; omega)
        (by show 1024 * 1 + k.val = 1024 * ((t.val - 1 - 1) % 4) + k.val; omega))
      (Blocks.w_tile_apply m c ⟨t.val - 1 - 1, hb⟩ s k Q _ (by show Q.val = 512 * ((t.val - 1 - 1) / 4 % 8) + s.val; omega)
        (by show 1024 * 1 + k.val = 1024 * ((t.val - 1 - 1) % 4) + k.val; omega))
  · exact congrArg₂ (· * ·)
      (Blocks.x_tile_apply m c ⟨t.val - 1, hc⟩ r k P _ (by show P.val = 1024 * ((t.val - 1) / 32) + r.val; omega)
        (by show 1024 * 2 + k.val = 1024 * ((t.val - 1) % 4) + k.val; omega))
      (Blocks.w_tile_apply m c ⟨t.val - 1, hc⟩ s k Q _ (by show Q.val = 512 * ((t.val - 1) / 4 % 8) + s.val; omega)
        (by show 1024 * 2 + k.val = 1024 * ((t.val - 1) % 4) + k.val; omega))
  · exact congrArg₂ (· * ·)
      (Blocks.x_tile_apply m c ⟨t.val, t.isLt⟩ r k P _ hP
        (by show 1024 * 3 + k.val = 1024 * (t.val % 4) + k.val; omega))
      (Blocks.w_tile_apply m c ⟨t.val, t.isLt⟩ s k Q _ hQ
        (by show 1024 * 3 + k.val = 1024 * (t.val % 4) + k.val; omega))
  · exact Blocks.bias_tile_apply m c ⟨t.val, t.isLt⟩ s Q hQ
  · exact Blocks.e_tile_apply m c ⟨t.val, t.isLt⟩ r P hP

/-- WHAT A WRITING POINT WRITES BACK is its tile of the specification. -/
theorem flushed_eq (c : Dev nD) (t : Fin cfg0.N) (hf : (cfg0.win 4).flush t = true) :
    (dats m 0 c).flushed 4 t = ((cfg0.win 4).blk t).view.read (Elt Ideal) (result m c) := by
  have h3 : t.val % 4 = 3 := (flush0_4 t).mp hf
  have hN : t.val < 256 := lt_of_lt_of_eq t.isLt N_0
  rw [Value.flushed4]
  funext y
  obtain ⟨r, s, rfl⟩ : ∃ (r : Fin 1024) (s : Fin 512), y = ix2 r s := ⟨y 0, y 1, eq_ix2 (n0 := 1024) (n1 := 512) y⟩
  have hP : (⟨1024 * (t.val / 32) + r.val, by omega⟩ : Fin 8192).val = 1024 * (t.val / 32) + r.val := rfl
  have hQ : (⟨512 * (t.val / 4 % 8) + s.val, by omega⟩ : Fin 4096).val = 512 * (t.val / 4 % 8) + s.val := rfl
  rw [View.read_apply, Blocks.out_tile_emb t r s _ _ hP hQ]
  exact tile_entry m c t h3 r s _ _ hP hQ

/-- An index of the result is in point t's tile iff each coordinate is in the tile's range on its axis. -/
theorem mem_tile (t : Fin cfg0.N) (i : S8192x4096.Idx) :
    i ∈ ((cfg0.win 4).blk t).view.set ↔ ∀ a : Fin 2, win0_4.index t a * S1024x512.size a ≤ (i a).val
      ∧ (i a).val < win0_4.index t a * S1024x512.size a + S1024x512.size a := by
  show i ∈ ((View.whole main_v8).slice (win0_4.rect t)).set ↔ _
  rw [View.set_slice_whole, Rect.mem_set_unit]
  exact Iff.rfl

/-- EVERY ENTRY IS WRITTEN: entry (p, q) lies in the tile (p / 1024, q / 512), written at that tile's last step. -/
theorem cover (i : S8192x4096.Idx) :
    ∃ t : Fin cfg0.N, (cfg0.win 4).flush t = true ∧ i ∈ ((cfg0.win 4).blk t).view.set := by
  have h0 : (i 0).val < 8192 := (i 0).isLt
  have h1 : (i 1).val < 4096 := (i 1).isLt
  have hN : cfg0.N = 256 := N_0
  have hlt : ((i 0).val / 1024 * 8 + (i 1).val / 512) * 4 + 3 < cfg0.N := by rw [hN]; omega
  obtain ⟨-, -, -, -, -, -, -, -, e8, e9⟩ := Blocks.tile_index ⟨((i 0).val / 1024 * 8 + (i 1).val / 512) * 4 + 3, hlt⟩
  refine ⟨⟨((i 0).val / 1024 * 8 + (i 1).val / 512) * 4 + 3, hlt⟩,
    (flush0_4 _).mpr (by show (((i 0).val / 1024 * 8 + (i 1).val / 512) * 4 + 3) % 4 = 3; omega), ?_⟩
  rw [mem_tile]
  intro a
  match a with
  | ⟨0, _⟩ =>
    show win0_4.index _ (0 : Fin 2) * 1024 ≤ (i 0).val ∧ (i 0).val < win0_4.index _ (0 : Fin 2) * 1024 + 1024
    rw [e8]
    show (((i 0).val / 1024 * 8 + (i 1).val / 512) * 4 + 3) / 32 * 1024 ≤ (i 0).val
      ∧ (i 0).val < (((i 0).val / 1024 * 8 + (i 1).val / 512) * 4 + 3) / 32 * 1024 + 1024
    omega
  | ⟨1, _⟩ =>
    show win0_4.index _ (1 : Fin 2) * 512 ≤ (i 1).val ∧ (i 1).val < win0_4.index _ (1 : Fin 2) * 512 + 512
    rw [e9]
    show (((i 0).val / 1024 * 8 + (i 1).val / 512) * 4 + 3) / 4 % 8 * 512 ≤ (i 1).val
      ∧ (i 1).val < (((i 0).val / 1024 * 8 + (i 1).val / 512) * 4 + 3) / 4 % 8 * 512 + 512
    omega

/-- The result array after the run is the specification. -/
theorem final (c : Dev nD) : (dats m 0 c).arrAt 4 cfg0.N = result m c :=
  (dats m 0 c).arrAt_eq_of_cover 4 (result m c) (flushed_eq m c) cover

/-- The kernel's run: it terminates with the result array at the specification and the arguments unchanged. -/
theorem run : θ_run defs (onTc (τ := τ) (main (F := Ideal))) ⟨m, fun _ => 0, ρ⟩ fun r => ∀ c : Dev nD,
      r.2.mem ((c : Thread nD τ).loc main_v8) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.KernelValue

end
-- ==== Proof.RefValue.lean ====
/-
  The reference's result, read at an entry, is the specification.

  The reference computes the whole product x·Wᵀ at once, adds the bias vector repeated over the rows (the vector placed
  on axis 1 of a one-row array, then that row repeated), and adds the per-row vector e repeated over the columns (the
  vector placed on axis 0 of a one-column array, then that column repeated). At (p, q) that is
  (Σₖ x(p, k) · W(q, k) + b(q)) + e(p), with e the host-computed vector kept as one term.
-/
import Idealize.ShloMosaic.Lib.ValueIdx
import proofs.«133208_j50964081934821_1_alg».proof.Proof.Gen.ReferenceIdeal.Read
import proofs.«133208_j50964081934821_1_alg».proof.Proof.Spec

noncomputable section

namespace Cert.ReferenceIdeal.RefValue

open Idealize.ShloMosaic Idealize.ShloMosaic.ValueIdx Cert.ReferenceIdeal Cert.ReferenceIdeal.Gen Cert.ReferenceIdeal.Read

/-- The reference's last stage is the specification of its four arguments. -/
theorem result_eq (x0 : (⟨S8192x4096, .f32⟩ : BufTy).Contents (Elt Ideal)) (x1 : (⟨S4096x4096, .f32⟩ : BufTy).Contents (Elt Ideal))
    (x2 : (⟨S4096, .f32⟩ : BufTy).Contents (Elt Ideal)) (x3 : (⟨S8192x1000, .i32⟩ : BufTy).Contents (Elt Ideal)) :
    val_main_v12 (F := Ideal) x0 x1 x2 x3
      = Cert.Spec.affineArr x0 x1 x2
          (Cert.Spec.expectation Facts₀.reducesTo_S8192x1000_S8192_d1 Facts₀.h_S_ Facts₀.bcast_S_S8192 x3) := by
  funext i
  obtain ⟨p, q, rfl⟩ : ∃ (p : Fin 8192) (q : Fin 4096), i = ix2 p q := ⟨i 0, i 1, eq_ix2 i⟩
  have el : ∀ k : Fin 4096, lidx_main_v0 (ix2 p q) k = ix2 p k := fun k =>
    funext fun a => Fin.ext (by match a with | ⟨0, _⟩ => rfl | ⟨1, _⟩ => rfl)
  have er : ∀ k : Fin 4096, ridx_main_v0 (ix2 p q) k = ix2 q k := fun k =>
    funext fun a => Fin.ext (by match a with | ⟨0, _⟩ => rfl | ⟨1, _⟩ => rfl)
  have eb : idx_main_v1 (idx_main_v2 (ix2 p q)) = ix1 q :=
    funext fun a => Fin.ext (by match a with | ⟨0, _⟩ => rfl)
  have ee : idx_main_v10 (idx_main_v11 (ix2 p q)) = ix1 p :=
    funext fun a => Fin.ext (by match a with | ⟨0, _⟩ => rfl)
  rw [val_main_v12_apply, val_main_v3_apply, val_main_v0_apply, val_main_v2_apply, val_main_v1_apply,
    val_main_v11_apply, val_main_v10_apply, eb, ee]
  simp only [el, er]
  rfl

end Cert.ReferenceIdeal.RefValue

end
-- ==== Proof.lean ====
/-
  A tiled matrix product with a fused bias and per-row term, against its one-line reference.

  Both programs compute, for x [8192, 4096], W [4096, 4096], a bias b [4096] and an integer array n [8192, 1000],

      out(p, q) = (Σₖ x(p, k) · W(q, k) + b(q)) + e(p),      e(p) = ((0 + Σⱼ n(p, j)) / 1000) / 15,

  over the extended reals. The vector e is computed by the same four host operations in both programs and is carried
  as one unopened term. The reference takes the sum over k = 0 … 4095 at once. The kernel walks a grid of output
  tiles [1024, 512] and, for each, four steps over k-tiles of 1024: it zeroes an accumulator, adds the four tile
  products in order, and at the last step stores the accumulator plus the bias row plus the e column. The operands'
  change of format before each product is the identity over the extended reals. Regrouping the sum of 4096 terms into
  four sums of 1024 added in order onto zero uses only that addition of extended reals is commutative and associative,
  so the two results agree at every entry for every input; the finiteness precondition is not used.

  The kernel's and the idealized kernel's frames are the generated ones; the reference's frame is its generated run with
  the result dropped; the idealized kernel is the kernel's own text read over the extended reals (no rewrite was
  applied), so that conjunct is trivial.
-/
import proofs.«133208_j50964081934821_1_alg».proof.Defs
import proofs.«133208_j50964081934821_1_alg».proof.Proof.Gen.Kernel
import proofs.«133208_j50964081934821_1_alg».proof.Proof.Gen.Kernel.Skeleton
import proofs.«133208_j50964081934821_1_alg».proof.Proof.Gen.Kernel.Launch
import proofs.«133208_j50964081934821_1_alg».proof.Proof.Gen.Kernel.Points
import proofs.«133208_j50964081934821_1_alg».proof.Proof.Gen.Kernel.Frame
import proofs.«133208_j50964081934821_1_alg».proof.Proof.Gen.KernelIdeal
import proofs.«133208_j50964081934821_1_alg».proof.Proof.Gen.KernelIdeal.Skeleton
import proofs.«133208_j50964081934821_1_alg».proof.Proof.Gen.KernelIdeal.Launch
import proofs.«133208_j50964081934821_1_alg».proof.Proof.Gen.KernelIdeal.Points
import proofs.«133208_j50964081934821_1_alg».proof.Proof.Gen.KernelIdeal.Frame
import proofs.«133208_j50964081934821_1_alg».proof.Proof.Gen.ReferenceIdeal
import proofs.«133208_j50964081934821_1_alg».proof.Proof.Gen.Pre_finite_inputs
import proofs.«133208_j50964081934821_1_alg».proof.Proof.Gen.KernelIdeal.Value
import proofs.«133208_j50964081934821_1_alg».proof.Proof.Gen.ReferenceIdeal.Run
import proofs.«133208_j50964081934821_1_alg».proof.Proof.Gen.ReferenceIdeal.Read
import proofs.«133208_j50964081934821_1_alg».proof.Proof.KernelValue
import proofs.«133208_j50964081934821_1_alg».proof.Proof.RefValue
import Idealize.ShloMosaic.Adequacy
import Idealize.ShloMosaic.Init

noncomputable section

namespace Cert.Proof

open Idealize.ShloMosaic Idealize.SL.Sem

/-- The kernel as printed runs, and leaves its arguments as they were. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- So does the reference: its run, with what it says about the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- No operation of the kernel was rewritten on the way to the extended reals. -/
theorem preserves : Cert.preserves_Kernel_KernelIdeal := trivial

/-- From arguments that agree, the kernel's result array and the reference's both end at the specification of those
    arguments. -/
theorem algebraic : Cert.algebraic_KernelIdeal_ReferenceIdeal := by
  intro m ρ m' ρ' _ hagree
  refine ⟨fun c => Cert.KernelIdeal.KernelValue.result m c, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, Cert.ReferenceIdeal.RefValue.result_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
